-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S16x4096x1024 : Shape := ⟨3, ![16, 4096, 1024]⟩
abbrev S16x1024x4096 : Shape := ⟨3, ![16, 1024, 4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S16x4096x1024 : S_.BroadcastsInDim S16x4096x1024 (![] : Fin 0 → Fin S16x4096x1024.rank)
  reducesTo_S16x4096x1024_S_d0_1_2 : S16x4096x1024.ReducesTo [0, 1, 2] S_
  bcast_S_S16x1024x4096 : S_.BroadcastsInDim S16x1024x4096 (![] : Fin 0 → Fin S16x1024x4096.rank)
  reducesTo_S16x1024x4096_S_d0_1_2 : S16x1024x4096.ReducesTo [0, 1, 2] S_

variable [Facts]

def fn {F : FTy → Type} [FloatOps F] (main_arg0 : FVec F S4096x1024 .f32) (main_arg1 : IVec S4096 32) (main_arg2 : FVec F S16x4096x1024 .f32) (main_arg3 : FVec F S16x1024x4096 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S16x4096x1024 .f32 := Host.absf main_arg2
  let main_cst_0 : FVec F S_ .f32 := constant S_ .f32 0x7F800000#32
  let main_v5 : FVec F S16x4096x1024 .f32 := broadcastInDim S16x4096x1024 ![] bcast_S_S16x4096x1024 main_cst_0
  let main_v6 : IVec S16x4096x1024 1 := cmpf .olt main_v4 main_v5
  let main_c_1 : IVec S_ 1 := constantI S_ 1 1#1
  let main_v7 : IVec S_ 1 := (fun x v => Host.reduce IntOp.andi x v reducesTo_S16x4096x1024_S_d0_1_2 h_S_) main_v6 main_c_1
  let main_v8 : IVec S_ 1 := andi main_v3 main_v7
  let main_v9 : FVec F S16x1024x4096 .f32 := Host.absf main_arg3
  let main_cst_2 : FVec F S_ .f32 := constant S_ .f32 0x7F800000#32
  let main_v10 : FVec F S16x1024x4096 .f32 := broadcastInDim S16x1024x4096 ![] bcast_S_S16x1024x4096 main_cst_2
  let main_v11 : IVec S16x1024x4096 1 := cmpf .olt main_v9 main_v10
  let main_c_3 : IVec S_ 1 := constantI S_ 1 1#1
  let main_v12 : IVec S_ 1 := (fun x v => Host.reduce IntOp.andi x v reducesTo_S16x1024x4096_S_d0_1_2 h_S_) main_v11 main_c_3
  let main_v13 : IVec S_ 1 := andi main_v8 main_v12
  main_v13
-- ==== Kernel.lean ====
abbrev S4096x1024 : Shape := ⟨2, ![4096, 1024]⟩
abbrev S4096 : Shape := ⟨1, ![4096]⟩
abbrev S16x4096x1024 : Shape := ⟨3, ![16, 4096, 1024]⟩
abbrev S16x1024x4096 : Shape := ⟨3, ![16, 1024, 4096]⟩
abbrev S_ : Shape := ⟨0, ![]⟩
abbrev S4096x1 : Shape := ⟨2, ![4096, 1]⟩
abbrev S16x256x1024 : Shape := ⟨3, ![16, 256, 1024]⟩
abbrev S1x256x1024 : Shape := ⟨3, ![1, 256, 1024]⟩
abbrev S1x1024x1024 : Shape := ⟨3, ![1, 1024, 1024]⟩
abbrev S256x1024 : Shape := ⟨2, ![256, 1024]⟩
abbrev S1024x1024 : Shape := ⟨2, ![1024, 1024]⟩

abbrev nBuf : Space → Nat
  | .hbm => 31
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S16x4096x1024, .f32⟩
  | .hbm, ⟨3, _⟩ => ⟨S16x1024x4096, .f32⟩
  | .hbm, ⟨4, _⟩ => ⟨S4096, .i32⟩
  | .hbm, ⟨5, _⟩ => ⟨S4096, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S_, .i32⟩
  | .hbm, ⟨11, _⟩ => ⟨S4096, .i32⟩
  | .hbm, ⟨12, _⟩ => ⟨S4096, .i1⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S4096, .i32⟩
  | .hbm, ⟨17, _⟩ => ⟨S4096x1, .i32⟩
  | .hbm, ⟨18, _⟩ => ⟨S4096x1024, .f32⟩
  | .hbm, ⟨19, _⟩ => ⟨S16x256x1024, .f32⟩
  | .hbm, ⟨20, _⟩ => ⟨S16x256x1024, .f32⟩
  | .hbm, ⟨21, _⟩ => ⟨S4096x1024, .f32⟩
  | .hbm, ⟨22, _⟩ => ⟨S_, .i32⟩
  | .hbm, ⟨23, _⟩ => ⟨S4096, .i32⟩
  | .hbm, ⟨24, _⟩ => ⟨S4096, .i1⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S4096, .i32⟩
  | .hbm, ⟨29, _⟩ => ⟨S4096x1, .i32⟩
  | .hbm, ⟨30, _⟩ => ⟨S4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x256x1024, .f32⟩
  | .local _ .vmem, ⟨7, _⟩ => ⟨S1x256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1_0 : Ref sig .tc := ⟨.hbm, 5, rfl⟩
abbrev main_v0 : Ref sig .tc := ⟨.hbm, 6, rfl⟩
abbrev main_call1_v0 : Ref sig .tc := ⟨.hbm, 7, rfl⟩
abbrev main_call1_v1_0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  shapeCasts_S4096x1024_S16x256x1024 : S4096x1024.ShapeCasts S16x256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S16x256x1024_S4096x1024 : S16x256x1024.ShapeCasts S4096x1024
  gather_S4096x1024_S4096x1_S4096x1024_1_0_n_n_0_1_11024_wf : GatherDims.WF S4096x1024 S4096x1 S4096x1024 [1] [0] [] [0] [] 1 ![1, 1024]
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S16x256x1024.size a
  hwx0_0 : ∀ i : grid0.Coords, EltTy.bits .f32 = 32 ∨ (Rect.block (s := S16x256x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S16x4096x1024.size a
  hwx0_1 : ∀ i : grid0.Coords, EltTy.bits .f32 = 32 ∨ (Rect.block (s := S16x4096x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S16x1024x4096.size a
  hwx0_2 : ∀ i : grid0.Coords, EltTy.bits .f32 = 32 ∨ (Rect.block (s := S16x1024x4096) S1x1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S16x256x1024.size a
  hwx0_3 : ∀ i : grid0.Coords, EltTy.bits .f32 = 32 ∨ (Rect.block (s := S16x256x1024) S1x256x1024.size (cc0_transform_3 i) (hinb0_3 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S4096x1024_S4096x1_S4096x1024_1_0_n_n_0_1_11024 : GatherDims S4096x1024 S4096x1 S4096x1024 where
  offsetDims := [1]
  collapsedSliceDims := [0]
  operandBatchingDims := []
  startIndicesBatchingDims := []
  startIndexMap := [0]
  indexVectorDim := 1
  sliceSizes := ![1, 1024]
  wf := gather_S4096x1024_S4096x1_S4096x1024_1_0_n_n_0_1_11024_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_v9) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096 : Shape := ⟨1, ![4096]⟩
abbrev S16x4096x1024 : Shape := ⟨3, ![16, 4096, 1024]⟩
abbrev S16x1024x4096 : Shape := ⟨3, ![16, 1024, 4096]⟩
abbrev S_ : Shape := ⟨0, ![]⟩
abbrev S4096x1 : Shape := ⟨2, ![4096, 1]⟩
abbrev S16x256x1024 : Shape := ⟨3, ![16, 256, 1024]⟩
abbrev S16x256x4096 : Shape := ⟨3, ![16, 256, 4096]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S16x4096x1024, .f32⟩
  | .hbm, ⟨3, _⟩ => ⟨S16x1024x4096, .f32⟩
  | .hbm, ⟨4, _⟩ => ⟨S4096, .i32⟩
  | .hbm, ⟨5, _⟩ => ⟨S4096, .i32⟩
  | .hbm, ⟨6, _⟩ => ⟨S4096, .i32⟩
  | .hbm, ⟨7, _⟩ => ⟨S_, .i32⟩
  | .hbm, ⟨8, _⟩ => ⟨S4096, .i32⟩
  | .hbm, ⟨9, _⟩ => ⟨S4096, .i1⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S4096, .i32⟩
  | .hbm, ⟨14, _⟩ => ⟨S4096x1, .i32⟩
  | .hbm, ⟨15, _⟩ => ⟨S4096x1024, .f32⟩
  | .hbm, ⟨16, _⟩ => ⟨S16x256x1024, .f32⟩
  | .hbm, ⟨17, _⟩ => ⟨S16x256x4096, .f32⟩
  | .hbm, ⟨18, _⟩ => ⟨S16x256x1024, .f32⟩
  | .hbm, ⟨19, _⟩ => ⟨S4096x1024, .f32⟩
  | .hbm, ⟨20, _⟩ => ⟨S4096, .i32⟩
  | .hbm, ⟨21, _⟩ => ⟨S4096, .i32⟩
  | .hbm, ⟨22, _⟩ => ⟨S4096, .i32⟩
  | .hbm, ⟨23, _⟩ => ⟨S_, .i32⟩
  | .hbm, ⟨24, _⟩ => ⟨S4096, .i32⟩
  | .hbm, ⟨25, _⟩ => ⟨S4096, .i1⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S4096, .i32⟩
  | .hbm, ⟨30, _⟩ => ⟨S4096x1, .i32⟩
  | .hbm, ⟨31, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1_0 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call1_v0 : Ref sig .tc := ⟨.hbm, 20, rfl⟩
abbrev main_call1_v1_0 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  shapeCasts_S4096x1024_S16x256x1024 : S4096x1024.ShapeCasts S16x256x1024
  shapeCasts_S16x256x1024_S4096x1024 : S16x256x1024.ShapeCasts S4096x1024
  gather_S4096x1024_S4096x1_S4096x1024_1_0_n_n_0_1_11024_wf : GatherDims.WF S4096x1024 S4096x1 S4096x1024 [1] [0] [] [0] [] 1 ![1, 1024]
  dot_S16x256x1024_S16x4096x1024_S16x256x4096_2_2_1_1_0_0_wf : DotDims.WF S16x256x1024 S16x4096x1024 S16x256x4096 [2] [2] [1] [1] [0] [0]
  dot_S16x256x4096_S16x1024x4096_S16x256x1024_2_2_1_1_0_0_wf : DotDims.WF S16x256x4096 S16x1024x4096 S16x256x1024 [2] [2] [1] [1] [0] [0]

variable [Facts₀]

def comparator_i32_i32_d0 : BitVec 32 × BitVec 32 → BitVec 32 × BitVec 32 → BitVec 1 :=
  fun l r =>
    let v2 := IntOp.cmpi .slt l.1 r.1
    v2
def gather_S4096x1024_S4096x1_S4096x1024_1_0_n_n_0_1_11024 : GatherDims S4096x1024 S4096x1 S4096x1024 where
  offsetDims := [1]
  collapsedSliceDims := [0]
  operandBatchingDims := []
  startIndicesBatchingDims := []
  startIndexMap := [0]
  indexVectorDim := 1
  sliceSizes := ![1, 1024]
  wf := gather_S4096x1024_S4096x1_S4096x1024_1_0_n_n_0_1_11024_wf
def dot_S16x256x1024_S16x4096x1024_S16x256x4096_2_2_1_1_0_0 : DotDims S16x256x1024 S16x4096x1024 S16x256x4096 where
  lhsContracting := [2]
  rhsContracting := [2]
  lhsNonContracting := [1]
  rhsNonContracting := [1]
  lhsBatch := [0]
  rhsBatch := [0]
  wf := dot_S16x256x1024_S16x4096x1024_S16x256x4096_2_2_1_1_0_0_wf
def dot_S16x256x4096_S16x1024x4096_S16x256x1024_2_2_1_1_0_0 : DotDims S16x256x4096 S16x1024x4096 S16x256x1024 where
  lhsContracting := [2]
  rhsContracting := [2]
  lhsNonContracting := [1]
  rhsNonContracting := [1]
  lhsBatch := [0]
  rhsBatch := [0]
  wf := dot_S16x256x4096_S16x1024x4096_S16x256x1024_2_2_1_1_0_0_wf

class Facts : Prop extends Facts₀ where

variable [Facts]
-- ==== Proof.Spec.lean ====
/-
  The value both programs compute for the routed tokens, as one function of the gathered tokens and the two weight
  arrays, and the one law that joins the two ways of summing it.

  For expert `e`, token slot `c` and output feature `o`, hidden unit `h` contributes
  `(Σ_i x[e,c,i] · w1[e,h,i]) · w2[e,o,h]`, and the result is the sum of the contributions of the 4096 hidden units.
  One program sums them all at once; the other takes the hidden units in four consecutive blocks of 1024 and adds
  each block's subtotal to a running total that starts at zero. Over the extended reals addition is commutative and
  associative (infinities included), so the total of the four subtotals is the one sum: no finiteness is needed.
-/
import Idealize.ShloMosaic.PureOps.Ideal.Laws
import Idealize.ShloMosaic.Lib.ValueIdx

noncomputable section

namespace Cert.Moe

open Idealize.ShloMosaic Idealize.ShloMosaic.ValueIdx

/-- The gathered tokens `[16, 256, 1024]`, the first weights `[16, 4096, 1024]`, the second weights `[16, 1024, 4096]`. -/
abbrev Tok : Type := (⟨3, ![16, 256, 1024]⟩ : Shape).Idx → EReal
abbrev Wt1 : Type := (⟨3, ![16, 4096, 1024]⟩ : Shape).Idx → EReal
abbrev Wt2 : Type := (⟨3, ![16, 1024, 4096]⟩ : Shape).Idx → EReal

/-- Hidden unit `h`'s contribution to output `(e, c, o)`: the token's product with row `h` of the first weights,
    times the second weights' entry `(o, h)`. -/
def term (X : Tok) (W1 : Wt1) (W2 : Wt2) (e : Fin 16) (c : Fin 256) (o : Fin 1024) (h : Fin 4096) : EReal :=
  (∑ i : Fin 1024, X (ix3 e c i) * W1 (ix3 e h i)) * W2 (ix3 e o h)

/-- The whole result: all 4096 contributions summed. -/
def G (X : Tok) (W1 : Wt1) (W2 : Wt2) : Tok :=
  fun y => ∑ h : Fin 4096, term X W1 W2 (y 0) (y 1) (y 2) h

theorem G_apply (X : Tok) (W1 : Wt1) (W2 : Wt2) (e : Fin 16) (c : Fin 256) (o : Fin 1024) :
    G X W1 W2 (ix3 e c o) = ∑ h : Fin 4096, term X W1 W2 e c o h := rfl

/-- Hidden unit `j` of block `k` (blocks are counted modulo four, so that the definition is total). -/
def hid (k : ℕ) (j : Fin 1024) : Fin 4096 :=
  ⟨(k % 4) * 1024 + j.val, by have := j.isLt; have := Nat.mod_lt k (show 0 < 4 by norm_num); omega⟩

/-- Block `k`'s subtotal. -/
def part (X : Tok) (W1 : Wt1) (W2 : Wt2) (e : Fin 16) (c : Fin 256) (o : Fin 1024) (k : ℕ) : EReal :=
  ∑ j : Fin 1024, term X W1 W2 e c o (hid k j)

/-- The running total after blocks `0 … k`. -/
def acc (X : Tok) (W1 : Wt1) (W2 : Wt2) (e : Fin 16) (c : Fin 256) (o : Fin 1024) (k : ℕ) : EReal :=
  ∑ b ∈ Finset.range (k + 1), part X W1 W2 e c o b

/-- Starting from zero, the first block's subtotal is the running total after block 0. -/
theorem acc_zero (X : Tok) (W1 : Wt1) (W2 : Wt2) (e : Fin 16) (c : Fin 256) (o : Fin 1024) :
    (0 : EReal) + part X W1 W2 e c o 0 = acc X W1 W2 e c o 0 := by
  unfold acc
  rw [zero_add, Finset.sum_range_one]

/-- Adding the next block's subtotal advances the running total. -/
theorem acc_succ (X : Tok) (W1 : Wt1) (W2 : Wt2) (e : Fin 16) (c : Fin 256) (o : Fin 1024) (k : ℕ) :
    acc X W1 W2 e c o k + part X W1 W2 e c o (k + 1) = acc X W1 W2 e c o (k + 1) := by
  unfold acc
  rw [Finset.sum_range_succ _ (k + 1)]

/-- THE LAW: a sum over the 4096 hidden units is the sum over the four blocks of the sums over each block's 1024
    units — a regrouping of a finite sum in a commutative monoid. -/
theorem sum_blocks (f : Fin 4096 → EReal) :
    ∑ h : Fin 4096, f h = ∑ b ∈ Finset.range 4, ∑ j : Fin 1024, f (hid b j) := by
  rw [Finset.sum_range]
  have e := Equiv.sum_comp (finProdFinEquiv (m := 4) (n := 1024)) (fun h : Fin (4 * 1024) => f h)
  rw [Fintype.sum_prod_type] at e
  refine e.symm.trans ?_
  refine Finset.sum_congr rfl fun b _ => Finset.sum_congr rfl fun j _ => congrArg f (Fin.ext ?_)
  show j.val + 1024 * b.val = (b.val % 4) * 1024 + j.val
  rw [Nat.mod_eq_of_lt b.isLt]
  omega

/-- So the running total after the fourth block is the whole result. -/
theorem acc_three (X : Tok) (W1 : Wt1) (W2 : Wt2) (e : Fin 16) (c : Fin 256) (o : Fin 1024) :
    acc X W1 W2 e c o 3 = G X W1 W2 (ix3 e c o) := by
  rw [G_apply, sum_blocks]
  rfl

/-- The running total as a block `[1, 256, 1024]` of expert `e`. -/
def accBlk (X : Tok) (W1 : Wt1) (W2 : Wt2) (e : Fin 16) (k : ℕ) : (⟨3, ![1, 256, 1024]⟩ : Shape).Idx → EReal :=
  fun y => acc X W1 W2 e (y 1) (y 2) k

theorem accBlk_apply (X : Tok) (W1 : Wt1) (W2 : Wt2) (e : Fin 16) (k : ℕ) (u : Fin 1) (c : Fin 256) (o : Fin 1024) :
    accBlk X W1 W2 e k (ix3 u c o) = acc X W1 W2 e c o k := rfl

end Cert.Moe

end
-- ==== Proof.LibContractRows.lean ====
/-
  Rows against rows: the contraction `[M, K] × [N, K] → [M, N]` over the LAST axis of both operands, read at an index.

  For the dimension numbers "contract axis 1 with axis 1, no batch axis" (`DotDims.transposedRhs M K N`) the entry
  `(p, q)` of the product is `Σ_k l[p,k] · r[q,k]`: row `p` of the left operand against row `q` of the right one. The
  contraction's own index type has one axis of extent `K`; the sum is re-indexed over `Fin K` through that axis, and the
  operand indices the dimension numbers compute are then `(p, k)` and `(q, k)`. Stated for a matrix product into a zero
  accumulator and for the host's `dot_general`, on the extended reals, where both are that plain sum.
-/
import Idealize.ShloMosaic.PureOps.Ideal.Laws
import Idealize.ShloMosaic.Lib.ValueIdx

noncomputable section

namespace Idealize.ShloMosaic.ContractRows

open Idealize.ShloMosaic Idealize.ShloMosaic.ValueIdx

variable {M K N : Nat}

/-- The left operand's index keeps the output's row. -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's index runs along its last axis with the contraction. -/
theorem lhs_col (j : (⟨2, ![M, N]⟩ : Shape).Idx) (k : (DotDims.transposedRhs M K N).contr.Idx) :
    ((DotDims.transposedRhs M K N).lhsIdx j k 1).val = (k ⟨0, Nat.zero_lt_one⟩).val :=
  (DotDims.transposedRhs M K N).lhsIdx_val_of_single rfl j k

/-- The right operand's index takes its row from the output's column. -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's index runs along its last axis with the contraction. -/
theorem rhs_col (j : (⟨2, ![M, N]⟩ : Shape).Idx) (k : (DotDims.transposedRhs M K N).contr.Idx) :
    ((DotDims.transposedRhs M K N).rhsIdx j k 1).val = (k ⟨0, Nat.zero_lt_one⟩).val :=
  (DotDims.transposedRhs M K N).rhsIdx_val_of_single rfl j k

/-- THE SUM: over the contraction's index it is the sum over `k : Fin K` of row `p` against row `q`. -/
theorem sum_rows (l : (⟨2, ![M, K]⟩ : Shape).Idx → EReal) (r : (⟨2, ![N, K]⟩ : Shape).Idx → EReal) (p : Fin M) (q : Fin N) :
    (∑ k : (DotDims.transposedRhs M K N).contr.Idx,
        l ((DotDims.transposedRhs M K N).lhsIdx (ix2 p q) k) * r ((DotDims.transposedRhs M K N).rhsIdx (ix2 p q) k))
      = ∑ k : Fin K, l (ix2 p k) * r (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs_row _ _
      | ⟨1, _⟩ => exact (lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs_row _ _
      | ⟨1, _⟩ => exact (rhs_col _ _).trans hk)
  rw [el, er]

/-- A matrix product into the zero accumulator, rows against rows, at `(p, q)`. -/
theorem matmul_zero_apply {φ₁ φ₂ : FTy} (prec : Option ContractPrecision)
    (l : FVec Ideal (⟨2, ![M, K]⟩ : Shape) φ₁) (r : FVec Ideal (⟨2, ![N, K]⟩ : Shape) φ₂) (p : Fin M) (q : Fin N) :
    FloatOps.matmul (DotDims.transposedRhs M K N) prec l r (constant (⟨2, ![M, N]⟩ : Shape) .f32 0x00000000#32) (ix2 p q)
      = ∑ k : Fin K, l (ix2 p k) * r (ix2 q k) :=
  (Ideal.matmul_constant_zero_apply (DotDims.transposedRhs M K N) prec l r (ix2 p q)).trans (sum_rows l r p q)

/-- The host's `dot_general`, rows against rows, at `(p, q)`. -/
theorem dotGeneral_apply {φ₁ φ₂ : FTy} (prec : Option ContractPrecision) (sched : HostSchedule)
    (l : FVec Ideal (⟨2, ![M, K]⟩ : Shape) φ₁) (r : FVec Ideal (⟨2, ![N, K]⟩ : Shape) φ₂) (p : Fin M) (q : Fin N) :
    FloatOps.dotGeneral (DotDims.transposedRhs M K N) prec sched l r (ix2 p q) = ∑ k : Fin K, l (ix2 p k) * r (ix2 q k) :=
  (Ideal.dotGeneral_apply (DotDims.transposedRhs M K N) prec sched l r (ix2 p q)).trans (sum_rows l r p q)

end Idealize.ShloMosaic.ContractRows

end
-- ==== Proof.Body.lean ====
/-
  What one grid point's body computes, read at an index, on the extended reals.

  The body holds the token block `x` `[1, 256, 1024]`, a block of 1024 rows of the first weights `a` `[1, 1024, 1024]`, the
  matching block of 1024 columns of the second weights `b` `[1, 1024, 1024]` and the running block `r` `[1, 256, 1024]`. It
  forms `h = x · aᵀ` (rows against rows, into a zero accumulator), then `h · bᵀ` the same way, and stores `r + h · bᵀ`.
  The changes of float format in between are the identity on the extended reals, and the leading unit axis is dropped
  and put back by shape casts. So at `(0, c, o)` it stores
  `r[0,c,o] + Σ_j (Σ_i x[0,c,i] · a[0,j,i]) · b[0,o,j]`.
  The block the first point of an expert stores beforehand is the zero word, the real number 0, everywhere.
-/
import proofs.«145512_j86715389706430_2_alg».proof.Proof.Gen.KernelIdeal.Skeleton
import proofs.«145512_j86715389706430_2_alg».proof.Proof.LibContractRows
import Idealize.ShloMosaic.Lib.ValueLayout
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-- The body's contraction is rows against rows: axis 1 of both operands, no batch axis. -/
theorem dims_eq : dot_S256x1024_S1024x1024_S256x1024_1_1_0_0_n_n = DotDims.transposedRhs 256 1024 1024 := rfl

/-- The zero block: the real number 0 at every index. -/
theorem zero_apply (u : Fin 1) (c : Fin 256) (o : Fin 1024) : k0_pay1 (F := Ideal) (ix3 u c o) = 0 := by
  unfold k0_pay1
  refine (shapeCast_ab_1ab_apply _ _ u c o).trans ?_
  exact Ideal.ofBits_zero_f32

/-- A product of two blocks with their leading unit axis dropped and their format changed, rows against rows into
    the zero accumulator, at `(p, q)`: row `p` of the first against row `q` of the second. -/
theorem rows_apply {M K N : Nat} (l : FVec Ideal (⟨2, ![M, K]⟩ : Shape) .bf16) (r : FVec Ideal (⟨2, ![N, K]⟩ : Shape) .bf16)
    (p : Fin M) (q : Fin N) :
    matmul (DotDims.transposedRhs M K N) none l r (constant (⟨2, ![M, N]⟩ : Shape) .f32 0x00000000#32) (ix2 p q)
      = ∑ k : Fin K, l (ix2 p k) * r (ix2 q k) :=
  ContractRows.matmul_zero_apply none l r p q

/-- THE BODY at `(u, c, o)`. -/
theorem pay_apply (x : Vec Ideal S1x256x1024 .f32) (a : Vec Ideal S1x1024x1024 .f32) (b : Vec Ideal S1x1024x1024 .f32)
    (r : Vec Ideal S1x256x1024 .f32) (u : Fin 1) (c : Fin 256) (o : Fin 1024) :
    k0_pay2 (F := Ideal) x a b r (ix3 u c o)
      = r (ix3 (0 : Fin 1) c o) + ∑ j : Fin 1024, (∑ i : Fin 1024, x (ix3 (0 : Fin 1) c i) * a (ix3 (0 : Fin 1) j i)) * b (ix3 (0 : Fin 1) o j) := by
  unfold k0_pay2
  refine (shapeCast_ab_1ab_apply _ _ u c o).trans ?_
  rw [addf_apply]
  refine congrArg₂ (· + ·) (shapeCast_1ab_ab_apply r _ c o) ?_
  rw [dims_eq]
  refine (rows_apply _ _ c o).trans ?_
  refine Finset.sum_congr rfl fun j _ => ?_
  rw [truncf_apply, truncf_apply]
  refine congrArg₂ (· * ·) ?_ (shapeCast_1ab_ab_apply b _ o j)
  refine (rows_apply _ _ c j).trans ?_
  refine Finset.sum_congr rfl fun i _ => ?_
  rw [truncf_apply, truncf_apply]
  exact congrArg₂ (· * ·) (shapeCast_1ab_ab_apply x _ c i) (shapeCast_1ab_ab_apply a _ j i)

end Cert.KernelIdeal.Body

end
-- ==== Proof.Pieces.lean ====
/-
  What each kind of grid point leaves in the output's staging block, as a value.

  At the first point of an expert the body first stores the zero block, reads it back, and stores the body's value
  over it: the block ends at the body's value of the three input blocks and the zero block. At every other point the
  body reads the block the point before left and stores the body's value of the three input blocks and that block.
  In both cases the last store covers the whole block at offset zero, so the block is that store's value.
-/
import proofs.«145512_j86715389706430_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0, 0] : Fin 3 → Nat) = fun _ => 0 := funext fun a => by fin_cases a <;> rfl

/-- A later point: the body's value of the input blocks `x0 x1 x2` and the carried block `xo`. -/
theorem out_B (c : Dev nD) (i : grid0.Coords) (a2 : Memref sig .tc .vmem S1x256x1024 .f32) (h2 : a2.IsWhole)
    (a3 : Memref sig .tc .vmem S1x1024x1024 .f32) (h3 : a3.IsWhole) (a4 : Memref sig .tc .vmem S1x1024x1024 .f32) (h4 : a4.IsWhole)
    (a5 : Memref sig .tc .vmem S1x256x1024 .f32) (h5 : a5.IsWhole) (hc : ¬cond0_0 i)
    (x0 : Vec F S1x256x1024 .f32) (x1 : Vec F S1x1024x1024 .f32) (x2 : Vec F S1x1024x1024 .f32) (xo : Vec F S1x256x1024 .f32) :
    out0_B_3 c i a2 h2 a3 h3 a4 h4 a5 h5 hc x0 x1 x2 xo = k0_pay2 x0 x1 x2 xo := by
  unfold out0_B_3
  rw [View.read_writes_eq_canon _ _ _ (cover0_B_3 c i a2 h2 a3 h3 a4 h4 a5 h5 hc x0 x1 x2 xo)]
  unfold kernelRun0_B
  dsimp only
  rw [View.canon_unit_zero hz]
  simp only [View.readAt_eq_ld, h2.read_unread, h3.read_unread, h4.read_unread, h5.read_unread,
    View.ld_unit_zero (S := S1x256x1024) hz, View.ld_unit_zero (S := S1x1024x1024) hz]

/-- The first point of an expert: the body's value of the input blocks and the zero block. -/
theorem out_A (c : Dev nD) (i : grid0.Coords) (a2 : Memref sig .tc .vmem S1x256x1024 .f32) (h2 : a2.IsWhole)
    (a3 : Memref sig .tc .vmem S1x1024x1024 .f32) (h3 : a3.IsWhole) (a4 : Memref sig .tc .vmem S1x1024x1024 .f32) (h4 : a4.IsWhole)
    (a5 : Memref sig .tc .vmem S1x256x1024 .f32) (h5 : a5.IsWhole) (hc : cond0_0 i)
    (x0 : Vec F S1x256x1024 .f32) (x1 : Vec F S1x1024x1024 .f32) (x2 : Vec F S1x1024x1024 .f32) :
    out0_A_3 c i a2 h2 a3 h3 a4 h4 a5 h5 hc x0 x1 x2 = k0_pay2 x0 x1 x2 (k0_pay1 (F := F)) := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S1x256x1024) hz]
  simp only [View.readCov_unit_zero (S := S1x256x1024) _ hz, View.readAt_eq_ld, h2.read_unread, h3.read_unread, h4.read_unread,
    View.ld_unit_zero (S := S1x256x1024) hz, View.ld_unit_zero (S := S1x1024x1024) hz]

end Cert.KernelIdeal.Pieces

end
-- ==== Proof.Blocks.lean ====
/-
  Which entries of the arrays a grid point's blocks hold.

  The grid is 16 experts by 4 blocks of hidden units, the block axis running fastest: point `t = 4e + k` is expert `e`,
  block `k`. There the token block is expert `e`'s 256 tokens; the first weights' block is rows `1024k … 1024k + 1023` of
  expert `e`; the second weights' block is columns `1024k … 1024k + 1023` of expert `e`; the output block is expert `e`'s
  256 rows. A block's entry at a coordinate sits at block index × block size + the coordinate, on every axis.
-/
import proofs.«145512_j86715389706430_2_alg».proof.Proof.Gen.KernelIdeal.Frame
import proofs.«145512_j86715389706430_2_alg».proof.Proof.Spec
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx Cert.Moe

variable {F : FTy → Type} [FloatOps F]
variable (m : (ℓ : Loc nD τ sig) → Buf (Elt F) ℓ)

/-- The four index maps over the 64 points: the expert is the point divided by four, the hidden block the remainder. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = t.val % 4 ∧ win0_1.index t (2 : Fin 3) = 0
    ∧ win0_2.index t (0 : Fin 3) = t.val / 4 ∧ win0_2.index t (1 : Fin 3) = 0 ∧ win0_2.index t (2 : Fin 3) = t.val % 4
    ∧ win0_3.index t (0 : Fin 3) = t.val / 4 ∧ win0_3.index t (1 : Fin 3) = 0 ∧ win0_3.index t (2 : Fin 3) = 0 :=
  (by decide +kernel : ∀ t : Fin grid0.N, _)

/-- The token block at point `4e + k`: expert `e`'s tokens. -/
theorem tok_apply (c : Dev nD) (t : Fin cfg0.N) (e : Fin 16) (k : ℕ) (ht : t.val = 4 * e.val + k) (hk : k < 4)
    (u : Fin 1) (p : Fin 256) (i : Fin 1024) :
    (iblk m c 0 t : Vec F S1x256x1024 .f32) (ix3 u p i) = V m c main_v9 (ix3 e p i) := by
  obtain ⟨e0, e1, e2, -⟩ := idx_facts t
  unfold iblk
  rw [View.read_apply]
  show V m c main_v9 (((cfg0.win 0).blk t).view.emb (ix3 u p i)) = V m c main_v9 (ix3 e p i)
  refine congrArg (V m c main_v9) (funext fun a => Fin.ext ?_)
  match a with
  | ⟨0, _⟩ => show win0_0.index t (0 : Fin 3) * 1 + 1 * u.val = e.val; omega
  | ⟨1, _⟩ => show win0_0.index t (1 : Fin 3) * 256 + 1 * p.val = p.val; omega
  | ⟨2, _⟩ => show win0_0.index t (2 : Fin 3) * 1024 + 1 * i.val = i.val; omega

/-- The first weights' block at point `4e + k`: rows `hid k ·` of expert `e`. -/
theorem w1_apply (c : Dev nD) (t : Fin cfg0.N) (e : Fin 16) (k : ℕ) (ht : t.val = 4 * e.val + k) (hk : k < 4)
    (u : Fin 1) (j : Fin 1024) (i : Fin 1024) :
    (iblk m c 1 t : Vec F S1x1024x1024 .f32) (ix3 u j i) = V m c main_arg2 (ix3 e (hid k j) i) := by
  obtain ⟨-, -, -, e0, e1, e2, -⟩ := idx_facts t
  unfold iblk
  rw [View.read_apply]
  show V m c main_arg2 (((cfg0.win 1).blk t).view.emb (ix3 u j i)) = V m c main_arg2 (ix3 e (hid k j) i)
  refine congrArg (V m c main_arg2) (funext fun a => Fin.ext ?_)
  match a with
  | ⟨0, _⟩ => show win0_1.index t (0 : Fin 3) * 1 + 1 * u.val = e.val; omega
  | ⟨1, _⟩ => show win0_1.index t (1 : Fin 3) * 1024 + 1 * j.val = (k % 4) * 1024 + j.val; omega
  | ⟨2, _⟩ => show win0_1.index t (2 : Fin 3) * 1024 + 1 * i.val = i.val; omega

/-- The second weights' block at point `4e + k`: columns `hid k ·` of expert `e`. -/
theorem w2_apply (c : Dev nD) (t : Fin cfg0.N) (e : Fin 16) (k : ℕ) (ht : t.val = 4 * e.val + k) (hk : k < 4)
    (u : Fin 1) (o : Fin 1024) (j : Fin 1024) :
    (iblk m c 2 t : Vec F S1x1024x1024 .f32) (ix3 u o j) = V m c main_arg3 (ix3 e o (hid k j)) := by
  obtain ⟨-, -, -, -, -, -, e0, e1, e2, -⟩ := idx_facts t
  unfold iblk
  rw [View.read_apply]
  show V m c main_arg3 (((cfg0.win 2).blk t).view.emb (ix3 u o j)) = V m c main_arg3 (ix3 e o (hid k j))
  refine congrArg (V m c main_arg3) (funext fun a => Fin.ext ?_)
  match a with
  | ⟨0, _⟩ => show win0_2.index t (0 : Fin 3) * 1 + 1 * u.val = e.val; omega
  | ⟨1, _⟩ => show win0_2.index t (1 : Fin 3) * 1024 + 1 * o.val = o.val; omega
  | ⟨2, _⟩ => show win0_2.index t (2 : Fin 3) * 1024 + 1 * j.val = (k % 4) * 1024 + j.val; omega

/-- The output block's entry `(u, p, o)` at a point of expert `e` is the array's entry `(e, p, o)`. -/
theorem out_emb (t : Fin cfg0.N) (e : Fin 16) (he : t.val / 4 = e.val) (u : Fin 1) (p : Fin 256) (o : Fin 1024) :
    ((cfg0.win 3).blk t).view.emb (ix3 u p o) = ix3 e p o := by
  obtain ⟨-, -, -, -, -, -, -, -, -, e0, e1, e2⟩ := idx_facts t
  refine funext fun a => Fin.ext ?_
  match a with
  | ⟨0, _⟩ => show win0_3.index t (0 : Fin 3) * 1 + 1 * u.val = e.val; omega
  | ⟨1, _⟩ => show win0_3.index t (1 : Fin 3) * 256 + 1 * p.val = p.val; omega
  | ⟨2, _⟩ => show win0_3.index t (2 : Fin 3) * 1024 + 1 * o.val = o.val; omega

/-- An index of the output array is in point `t`'s block iff each coordinate is in the block's range on its axis. -/
theorem mem_blk (t : Fin cfg0.N) (i : S16x256x1024.Idx) :
    i ∈ ((cfg0.win 3).blk t).view.set ↔ ∀ a : Fin 3, win0_3.index t a * S1x256x1024.size a ≤ (i a).val
      ∧ (i a).val < win0_3.index t a * S1x256x1024.size a + S1x256x1024.size a := by
  show i ∈ ((View.whole main_v10).slice (win0_3.rect t)).set ↔ _
  rw [View.set_slice_whole, Rect.mem_set_unit]
  exact Iff.rfl

/-- Every entry of the output array is in the block written back at the last point of its expert. -/
theorem cover (i : S16x256x1024.Idx) :
    ∃ t : Fin cfg0.N, (cfg0.win 3).flush t = true ∧ i ∈ ((cfg0.win 3).blk t).view.set := by
  have h0 : (i 0).val < 16 := (i 0).isLt
  have h1 : (i 1).val < 256 := (i 1).isLt
  have h2 : (i 2).val < 1024 := (i 2).isLt
  have hN : grid0.N = 64 := N_0
  obtain ⟨t, ht⟩ : ∃ t : Fin cfg0.N, t.val = 4 * (i 0).val + 3 :=
    ⟨⟨4 * (i 0).val + 3, by show 4 * (i 0).val + 3 < grid0.N; omega⟩, rfl⟩
  refine ⟨t, (flush0_3 t).mpr (by omega), ?_⟩
  obtain ⟨-, -, -, -, -, -, -, -, -, e0, e1, e2⟩ := idx_facts t
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 1024 ≤ (i 2).val ∧ (i 2).val < win0_3.index t (2 : Fin 3) * 1024 + 1024; omega

end Cert.KernelIdeal.Blocks

end
-- ==== Proof.KernelValue.lean ====
/-
  The output array after the region: the specification's `G` of the gathered tokens and the two weight arrays.

  Expert `e`'s output block is carried across its four points `4e, 4e + 1, 4e + 2, 4e + 3` and written back after the
  last. At point `4e` the body starts the block from zero and adds hidden block 0's subtotal; at point `4e + k` it adds
  hidden block `k`'s subtotal to what the point before left. So after point `4e + k` the block holds the running total
  of hidden blocks `0 … k` (by induction on `k`), the block written back at `4e + 3` is expert `e`'s rows of `G`
  (the running total after the fourth block is the whole sum: `Spec.acc_three`), and the sixteen written-back blocks
  cover the array.
-/
import proofs.«145512_j86715389706430_2_alg».proof.Proof.Spec
import proofs.«145512_j86715389706430_2_alg».proof.Proof.Body
import proofs.«145512_j86715389706430_2_alg».proof.Proof.Pieces
import proofs.«145512_j86715389706430_2_alg».proof.Proof.Blocks
import Idealize.ShloMosaic.Lib.Pipeline.Value

noncomputable section

namespace Cert.KernelIdeal.KernelValue

open Cert.KernelIdeal Cert.KernelIdeal.Gen Idealize.ShloMosaic Idealize.ShloMosaic.TcCoe Idealize.SL.Sem
open Idealize.ShloMosaic.ValueIdx Cert.Moe
open Idealize.ShloMosaic.Pipeline (Dat)

variable (m : (ℓ : Loc nD τ sig) → Buf (Elt Ideal) ℓ) (ρ : Dev nD → PrngReg)

/-- The gathered tokens and the two weight arrays, as the region finds them. -/
abbrev X (c : Dev nD) : Tok := V m c main_v9
abbrev W1 (c : Dev nD) : Wt1 := V m c main_arg2
abbrev W2 (c : Dev nD) : Wt2 := V m c main_arg3

/-- The body at point `4e + k`, on a carried block `r`: `r` plus hidden block `k`'s subtotal for expert `e`. -/
theorem point_eq (c : Dev nD) (t : Fin cfg0.N) (e : Fin 16) (k : ℕ) (ht : t.val = 4 * e.val + k) (hk : k < 4)
    (r : Vec Ideal S1x256x1024 .f32) (u : Fin 1) (p : Fin 256) (o : Fin 1024) :
    k0_pay2 (F := Ideal) (iblk m c 0 t) (iblk m c 1 t) (iblk m c 2 t) r (ix3 u p o)
      = r (ix3 (0 : Fin 1) p o) + part (X m c) (W1 m c) (W2 m c) e p o k := by
  refine (Body.pay_apply (iblk m c 0 t) (iblk m c 1 t) (iblk m c 2 t) r u p o).trans ?_
  refine congrArg (r (ix3 (0 : Fin 1) p o) + ·) ?_
  unfold part term
  refine Finset.sum_congr rfl fun j _ => ?_
  exact congrArg₂ (· * ·)
    (Finset.sum_congr rfl fun i _ => congrArg₂ (· * ·) (Blocks.tok_apply m c t e k ht hk 0 p i) (Blocks.w1_apply m c t e k ht hk 0 j i))
    (Blocks.w2_apply m c t e k ht hk 0 o j)

/-- The first point of an expert leaves the body's value of its blocks and the zero block. -/
theorem first (c : Dev nD) (t : Fin cfg0.N) (h0 : t.val % 4 = 0) :
    outsAt0 m c t.val t.isLt = k0_pay2 (F := Ideal) (iblk m c 0 t) (iblk m c 1 t) (iblk m c 2 t) (k0_pay1 (F := Ideal)) :=
  (outsAt0_A m c t h0).trans
    (Pieces.out_A (F := Ideal) c (grid0.coords t) (ms0_0 t) (hs0_0 t) (ms0_1 t) (hs0_1 t) (ms0_2 t) (hs0_2 t) (ms0_3 t) (hs0_3 t)
      ((hcond0_0 t).mpr h0) (iblk m c 0 t) (iblk m c 1 t) (iblk m c 2 t))

/-- A later point leaves the body's value of its blocks and what the point before left. -/
theorem later (c : Dev nD) (t : Fin cfg0.N) (h0 : ¬t.val % 4 = 0) :
    outsAt0 m c t.val t.isLt = k0_pay2 (F := Ideal) (iblk m c 0 t) (iblk m c 1 t) (iblk m c 2 t)
      (outsAt0 m c (t.val - 1) (Nat.lt_of_le_of_lt (Nat.sub_le _ _) t.isLt)) :=
  (outsAt0_B m c t h0).trans
    (Pieces.out_B (F := Ideal) c (grid0.coords t) (ms0_0 t) (hs0_0 t) (ms0_1 t) (hs0_1 t) (ms0_2 t) (hs0_2 t) (ms0_3 t) (hs0_3 t)
      (fun h => h0 ((hcond0_0 t).mp h)) (iblk m c 0 t) (iblk m c 1 t) (iblk m c 2 t)
      (outsAt0 m c (t.val - 1) (Nat.lt_of_le_of_lt (Nat.sub_le _ _) t.isLt)))

/-- After point `4e + k` the output block holds expert `e`'s running total of hidden blocks `0 … k`: by induction on `k`. -/
theorem outsAt_eq (c : Dev nD) (e : Fin 16) : ∀ (k : ℕ) (hk : k < 4) (n : ℕ) (hn : n < cfg0.N), n = 4 * e.val + k →
    outsAt0 m c n hn = accBlk (X m c) (W1 m c) (W2 m c) e k
  | 0, hk, n, hn, hnk => by
    refine (first m c ⟨n, hn⟩ (by show n % 4 = 0; omega)).trans ?_
    funext y
    obtain ⟨u, p, o, rfl⟩ : ∃ (u : Fin 1) (p : Fin 256) (o : Fin 1024), y = ix3 u p o := ⟨y 0, y 1, y 2, eq_ix3 y⟩
    rw [accBlk_apply]
    refine (point_eq m c ⟨n, hn⟩ e 0 hnk hk _ u p o).trans ?_
    rw [Body.zero_apply]
    exact acc_zero _ _ _ e p o
  | k + 1, hk, n, hn, hnk => by
    refine (later m c ⟨n, hn⟩ (by show ¬n % 4 = 0; omega)).trans ?_
    have ih := outsAt_eq c e k (by omega) (n - 1) (Nat.lt_of_le_of_lt (Nat.sub_le _ _) hn) (by omega)
    funext y
    obtain ⟨u, p, o, rfl⟩ : ∃ (u : Fin 1) (p : Fin 256) (o : Fin 1024), y = ix3 u p o := ⟨y 0, y 1, y 2, eq_ix3 y⟩
    rw [accBlk_apply]
    refine (point_eq m c ⟨n, hn⟩ e (k + 1) hnk hk _ u p o).trans ?_
    refine (congrArg (· + part (X m c) (W1 m c) (W2 m c) e p o (k + 1)) (congrFun ih (ix3 (0 : Fin 1) p o))).trans ?_
    rw [accBlk_apply]
    exact acc_succ _ _ _ e p o k

/-- WHAT A WRITING POINT WRITES BACK is its block of `G`. -/
theorem flushed_eq (c : Dev nD) (t : Fin cfg0.N) (hf : (cfg0.win 3).flush t = true) :
    (dats m 0 c).flushed 3 t = ((cfg0.win 3).blk t).view.read (Elt Ideal) (G (X m c) (W1 m c) (W2 m c)) := by
  have hN : cfg0.N = 64 := N_0
  have h3 : t.val % 4 = 3 := (flush0_3 t).mp hf
  have hlt : t.val < 64 := lt_of_lt_of_eq t.isLt hN
  show (cfg0.win 3).cut (grid0.coords t) ((dats m 0 c).after 3 t) = _
  rw [after0_3, outsAt_eq m c ⟨t.val / 4, by omega⟩ 3 (by norm_num) t.val t.isLt (by show t.val = 4 * (t.val / 4) + 3; omega)]
  funext y
  obtain ⟨u, p, o, rfl⟩ : ∃ (u : Fin 1) (p : Fin 256) (o : Fin 1024), y = ix3 u p o := ⟨y 0, y 1, y 2, eq_ix3 y⟩
  show accBlk (X m c) (W1 m c) (W2 m c) ⟨t.val / 4, by omega⟩ 3 (ix3 u p o)
    = G (X m c) (W1 m c) (W2 m c) (((cfg0.win 3).blk t).view.emb (ix3 u p o))
  rw [Blocks.out_emb t ⟨t.val / 4, by omega⟩ rfl u p o, accBlk_apply]
  exact acc_three _ _ _ _ p o

/-- THE OUTPUT ARRAY after the region is `G`. -/
theorem final (c : Dev nD) : (dats m 0 c).arrAt 3 cfg0.N = G (X m c) (W1 m c) (W2 m c) :=
  (dats m 0 c).arrAt_eq_of_cover 3 (G (X m c) (W1 m c) (W2 m c)) (flushed_eq m c) Blocks.cover

end Cert.KernelIdeal.KernelValue

end
-- ==== Proof.HostSide.lean ====
/-
  The routing both programs share, as functions that are never opened.

  Both programs sort the tokens by expert with a stable argsort of the gate (`order`), gather the token rows in that
  order and view them as `[16, 256, 1024]` (`gathered`); after the expert computation they view the result as
  `[4096, 1024]` again and gather its rows by the argsort of the order, which undoes the permutation (`scattered`).
  A position is turned into a row index by wrapping a negative value by 4096 and adding a unit axis (`rows`).
  Nothing about sorting is used: the two programs apply the same functions to the same gate.
-/
import proofs.«145512_j86715389706430_2_alg».proof.Proof.Gen.KernelIdeal
import proofs.«145512_j86715389706430_2_alg».proof.Proof.Spec
import Idealize.ShloMosaic.PureOps.Ideal

noncomputable section

namespace Cert.KernelIdeal.HostSide

open Cert.KernelIdeal Cert.KernelIdeal.Facts₀ Idealize.ShloMosaic

/-- The stable argsort of a vector of 4096 integers: the positions in sorted order. -/
def order (g : (⟨S4096, .i32⟩ : BufTy).Contents (Elt Ideal)) : (⟨S4096, .i32⟩ : BufTy).Contents (Elt Ideal) :=
  (Host.sort2 S4096 0 comparator_i32_i32_d0 g (iotaInDim S4096 32 0)).2

/-- Positions as a column of row indices: a negative position wrapped by 4096. -/
def rows (p : (⟨S4096, .i32⟩ : BufTy).Contents (Elt Ideal)) : (⟨S4096x1, .i32⟩ : BufTy).Contents (Elt Ideal) :=
  broadcastInDim S4096x1 ![0] bcast_S4096_S4096x1_0
    (select (cmpi .slt p (broadcastInDim S4096 ![] bcast_S_S4096 (constantI S_ 32 0#32)))
      (addi p (broadcastInDim S4096 ![] bcast_S_S4096 (constantI S_ 32 4096#32))) p)

/-- The token rows gathered in the sorted order, viewed as 16 experts of 256 tokens. -/
def gathered (inp : (⟨S4096x1024, .f32⟩ : BufTy).Contents (Elt Ideal)) (g : (⟨S4096, .i32⟩ : BufTy).Contents (Elt Ideal)) :
    (⟨S16x256x1024, .f32⟩ : BufTy).Contents (Elt Ideal) :=
  shapeCast _ (Host.gather gather_S4096x1024_S4096x1_S4096x1024_1_0_n_n_0_1_11024 inp (rows (order g))) shapeCasts_S4096x1024_S16x256x1024

/-- A result `[16, 256, 1024]` viewed as 4096 rows and gathered by the inverse permutation. -/
def scattered (Y : (⟨S16x256x1024, .f32⟩ : BufTy).Contents (Elt Ideal)) (g : (⟨S4096, .i32⟩ : BufTy).Contents (Elt Ideal)) :
    (⟨S4096x1024, .f32⟩ : BufTy).Contents (Elt Ideal) :=
  Host.gather gather_S4096x1024_S4096x1_S4096x1024_1_0_n_n_0_1_11024 (shapeCast _ Y shapeCasts_S16x256x1024_S4096x1024) (rows (order (order g)))

end Cert.KernelIdeal.HostSide

end
-- ==== Proof.KernelRun.lean ====
/-
  The idealized kernel program's run, read: its result is the shared routing around `G`.

  Before the region the host operations leave the gathered tokens (the first window's array) and the inverse
  permutation; the region leaves `G` of the gathered tokens and the two weight arrays in the output array
  (`KernelValue.final`); after the region the host operations view that array as 4096 rows and gather them by the
  inverse permutation. The weight arrays reach the region as launched, and the four arguments end unchanged.
-/
import proofs.«145512_j86715389706430_2_alg».proof.Proof.Gen.KernelIdeal.Frame
import proofs.«145512_j86715389706430_2_alg».proof.Proof.KernelValue
import proofs.«145512_j86715389706430_2_alg».proof.Proof.HostSide
import Idealize.ShloMosaic.Lib.StableHlo.Run
import Idealize.ShloMosaic.Lib.Pipeline.Value
import Idealize.ShloMosaic.PureOps.Ideal

noncomputable section

namespace Cert.KernelIdeal.KernelRun

open Cert.KernelIdeal Cert.KernelIdeal.Gen Idealize.ShloMosaic Idealize.ShloMosaic.TcCoe Idealize.SL.Sem
open Idealize.ShloMosaic.StableHlo Cert.Moe
open Idealize.ShloMosaic.Pipeline (Dat)

variable (m : (ℓ : Loc nD τ sig) → Buf (Elt Ideal) ℓ) (ρ : Dev nD → PrngReg)

/-- The result, as a function of the four arguments' launch contents. -/
abbrev result (c : Dev nD) : Buf (Elt Ideal) ((c.tc : Thread nD τ).loc main_v18) :=
  HostSide.scattered
    (G (HostSide.gathered (m ((c.tc : Thread nD τ).loc main_arg0)) (m ((c.tc : Thread nD τ).loc main_arg1)))
      (m ((c.tc : Thread nD τ).loc main_arg2)) (m ((c.tc : Thread nD τ).loc main_arg3)))
    (m ((c.tc : Thread nD τ).loc main_arg1))

/-- The first window's array, as the region finds it, is the gathered tokens. -/
theorem tokens_eq (c : Dev nD) :
    (V m c main_v9 : S16x256x1024.Idx → EReal)
      = HostSide.gathered (m ((c.tc : Thread nD τ).loc main_arg0)) (m ((c.tc : Thread nD τ).loc main_arg1)) := by
  dsimp only [Gen.V, Gen.V0]
  simp only [hostOps0, hostOps0_1, hostOps0_2, List.flatten_cons, List.flatten_nil, List.append_nil, List.cons_append,
    List.nil_append]
  after_results
  rfl

/-- The inverse permutation, computed before the region, is the argsort of the argsort of the gate. -/
theorem inverse_eq (c : Dev nD) :
    (V m c main_v1 : S4096.Idx → BitVec 32) = HostSide.order (HostSide.order (m ((c.tc : Thread nD τ).loc main_arg1))) := by
  dsimp only [Gen.V, Gen.V0]
  simp only [hostOps0, hostOps0_1, hostOps0_2, List.flatten_cons, List.flatten_nil, List.append_nil, List.cons_append,
    List.nil_append]
  after_results
  rfl

/-- The output array after the region, in the arguments' launch contents. -/
theorem array_eq (c : Dev nD) :
    (dats m 0 c).arrAt 3 cfg0.N
      = G (HostSide.gathered (m ((c.tc : Thread nD τ).loc main_arg0)) (m ((c.tc : Thread nD τ).loc main_arg1)))
          (m ((c.tc : Thread nD τ).loc main_arg2)) (m ((c.tc : Thread nD τ).loc main_arg3)) := by
  refine (KernelValue.final m c).trans ?_
  show G (V m c main_v9) (V m c main_arg2) (V m c main_arg3) = _
  rw [tokens_eq m c, V_main_arg2 m c, V_main_arg3 m c]

/-- The program's result buffer after the host operations that follow the region. -/
theorem result_eq (c : Dev nD) :
    Pipeline.afterTail₀ cfgs (dats m) 0 (V0 m) [hostOps1] c main_v18 = result m c := by
  unfold Pipeline.afterTail₀
  show StableHlo.after hostOps1 _ (Proc.devRef .tc main_v18) = _
  after_results
  have hY : Pipeline.withArrays (cfgs 0).spec c (V0 m c) (fun w => (dats m 0 c).arrAt w (cfgs 0).N) (Proc.devRef .tc main_v10)
      = G (HostSide.gathered (m ((c.tc : Thread nD τ).loc main_arg0)) (m ((c.tc : Thread nD τ).loc main_arg1)))
          (m ((c.tc : Thread nD τ).loc main_arg2)) (m ((c.tc : Thread nD τ).loc main_arg3)) :=
    (Pipeline.withArrays_arr spec0 launch0.win.arr_inj c _ _ 3).trans (array_eq m c)
  have hI : Pipeline.withArrays (cfgs 0).spec c (V0 m c) (fun w => (dats m 0 c).arrAt w (cfgs 0).N) (Proc.devRef .tc main_v1)
      = HostSide.order (HostSide.order (m ((c.tc : Thread nD τ).loc main_arg1))) :=
    (Pipeline.withArrays_of_ne _ c (V0 m c) _ main_v1 (by exact (by decide : ∀ w, Pipeline.arrRef spec0 w ≠ main_v1))).trans
      (inverse_eq m c)
  rw [hY, hI]
  rfl

/-- THE RUN: every weakly fair execution terminates with the result buffer at `result` and the arguments unchanged. -/
theorem run : θ_run defs (onTc (τ := τ) (main (F := Ideal))) ⟨m, fun _ => 0, ρ⟩ fun r => ∀ c : Dev nD,
      r.2.mem ((c.tc : Thread nD τ).loc main_v18) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v18 (Pipeline.mem_restRefs_of main_v18 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c)))⟩)
    (run_main m ρ)

end Cert.KernelIdeal.KernelRun

end
-- ==== Proof.Reference.lean ====
/-
  The reference's two contractions, composed, are the specification's `G` of the gathered tokens.

  The first `dot_general` contracts the tokens' feature axis with the first weights' last axis, batched over the
  expert: `h[e,c,k] = Σ_i x[e,c,i] · w1[e,k,i]`. The second contracts `h`'s hidden axis with the second weights' last
  axis, batched the same way: `y[e,c,o] = Σ_k h[e,c,k] · w2[e,o,k]`. Substituting the first into the second is the
  sum of `Spec.term` over the 4096 hidden units, index by index.
-/
import proofs.«145512_j86715389706430_2_alg».proof.Proof.Gen.ReferenceIdeal.Read
import proofs.«145512_j86715389706430_2_alg».proof.Proof.Spec

noncomputable section

namespace Cert.ReferenceIdeal.RefValue

open Cert.ReferenceIdeal Cert.ReferenceIdeal.Read Idealize.ShloMosaic Idealize.ShloMosaic.ValueIdx

/-- The second contraction of the first, at every index, is `G` of the first contraction's left operand. -/
theorem dots_eq (x0 : (⟨S4096x1024, .f32⟩ : BufTy).Contents (Elt Ideal)) (x1 : (⟨S4096, .i32⟩ : BufTy).Contents (Elt Ideal))
    (x2 : (⟨S16x4096x1024, .f32⟩ : BufTy).Contents (Elt Ideal)) (x3 : (⟨S16x1024x4096, .f32⟩ : BufTy).Contents (Elt Ideal)) :
    val_main_v10 (F := Ideal) x0 x1 x2 x3 = Cert.Moe.G (val_main_v8 (F := Ideal) x0 x1) x2 x3 := by
  funext y
  obtain ⟨e, c, o, rfl⟩ : ∃ (e : Fin 16) (c : Fin 256) (o : Fin 1024), y = ix3 e c o := ⟨y 0, y 1, y 2, eq_ix3 y⟩
  rw [val_main_v10_apply, Cert.Moe.G_apply]
  refine Finset.sum_congr rfl fun h _ => ?_
  rw [val_main_v9_apply]
  unfold Cert.Moe.term
  have e2 : ridx_main_v10 (ix3 e c o) h = ix3 e o h :=
    funext fun a => Fin.ext (by match a with | ⟨0, _⟩ => rfl | ⟨1, _⟩ => rfl | ⟨2, _⟩ => rfl)
  rw [e2]
  refine congrArg (· * x3 (ix3 e o h)) ?_
  refine Finset.sum_congr rfl fun i _ => ?_
  have el : lidx_main_v9 (lidx_main_v10 (ix3 e c o) h) i = ix3 e c i :=
    funext fun a => Fin.ext (by match a with | ⟨0, _⟩ => rfl | ⟨1, _⟩ => rfl | ⟨2, _⟩ => rfl)
  have er : ridx_main_v9 (lidx_main_v10 (ix3 e c o) h) i = ix3 e h i :=
    funext fun a => Fin.ext (by match a with | ⟨0, _⟩ => rfl | ⟨1, _⟩ => rfl | ⟨2, _⟩ => rfl)
  rw [el, er]

end Cert.ReferenceIdeal.RefValue

end
-- ==== Proof.Bridge.lean ====
/-
  The reference spells the shared routing with its own copies of the same operations: the stages of its run are the
  functions of `HostSide`, operation for operation.
-/
import proofs.«145512_j86715389706430_2_alg».proof.Proof.Gen.ReferenceIdeal.Read
import proofs.«145512_j86715389706430_2_alg».proof.Proof.HostSide

noncomputable section

namespace Cert.ReferenceIdeal.Bridge

open Cert.ReferenceIdeal Cert.ReferenceIdeal.Facts₀ Cert.ReferenceIdeal.Read Idealize.ShloMosaic

/-- The reference's argsort of the gate. -/
theorem order_eq (x1 : (⟨S4096, .i32⟩ : BufTy).Contents (Elt Ideal)) :
    val_main_v0 (F := Ideal) x1 = Cert.KernelIdeal.HostSide.order x1 := rfl

/-- The reference's gathered tokens. -/
theorem gathered_eq (x0 : (⟨S4096x1024, .f32⟩ : BufTy).Contents (Elt Ideal)) (x1 : (⟨S4096, .i32⟩ : BufTy).Contents (Elt Ideal)) :
    val_main_v8 (F := Ideal) x0 x1 = Cert.KernelIdeal.HostSide.gathered x0 x1 := rfl

/-- The reference's last two operations on a result `Y`. -/
theorem scattered_eq (Y : (⟨S16x256x1024, .f32⟩ : BufTy).Contents (Elt Ideal)) (x1 : (⟨S4096, .i32⟩ : BufTy).Contents (Elt Ideal)) :
    Host.gather gather_S4096x1024_S4096x1_S4096x1024_1_0_n_n_0_1_11024 (shapeCast _ Y shapeCasts_S16x256x1024_S4096x1024)
      (val_main_v18 (F := Ideal) x1) = Cert.KernelIdeal.HostSide.scattered Y x1 := rfl

end Cert.ReferenceIdeal.Bridge

end
-- ==== Proof.lean ====
/-
  The certificate of a routed two-layer expert product: sixteen experts, each applying two weight matrices in turn
  (no activation) to its 256 tokens, the tokens sorted by expert beforehand and put back in their order afterwards.

  One program computes, for expert `e`, token slot `c` and output feature `o`,
  `y[e,c,o] = Σ_h (Σ_i x[e,c,i] · w1[e,h,i]) · w2[e,o,h]` with two batched contractions over all 4096 hidden units
  at once. The other walks a grid of 16 experts by 4 blocks of 1024 hidden units: at each point it forms the block's
  part of the first product, multiplies it by the matching block of the second weights, and adds the result to the
  expert's output block, which starts at zero at the expert's first point and is written back after its fourth.
  On the extended reals the changes of float format in between are the identity and a sum may be regrouped freely
  (infinities included), so both compute the same function (`Spec.G`) of the gathered tokens and the weights; the
  sorting and the un-sorting are the same operations in both programs and are carried along unopened. No property
  of the inputs is used: the precondition is never opened.

  Modules: `Spec` (the function and the regrouping law), `Body` (one grid point's arithmetic at an index),
  `Pieces` (what each kind of point leaves in the output block), `Blocks` (which array entries a point's blocks hold,
  and that the written-back blocks cover the output), `KernelValue` (the output array after the region is `G`),
  `HostSide` (the shared routing), `KernelRun` (the kernel program's result), `Reference` (the reference's two
  contractions are `G`), `Bridge` (the reference's routing is the shared one).
-/
import proofs.«145512_j86715389706430_2_alg».proof.Defs
import proofs.«145512_j86715389706430_2_alg».proof.Proof.Gen.Kernel
import proofs.«145512_j86715389706430_2_alg».proof.Proof.Gen.Kernel.Skeleton
import proofs.«145512_j86715389706430_2_alg».proof.Proof.Gen.Kernel.Launch
import proofs.«145512_j86715389706430_2_alg».proof.Proof.Gen.Kernel.Points
import proofs.«145512_j86715389706430_2_alg».proof.Proof.Gen.Kernel.Frame
import proofs.«145512_j86715389706430_2_alg».proof.Proof.Gen.KernelIdeal
import proofs.«145512_j86715389706430_2_alg».proof.Proof.Gen.KernelIdeal.Skeleton
import proofs.«145512_j86715389706430_2_alg».proof.Proof.Gen.KernelIdeal.Launch
import proofs.«145512_j86715389706430_2_alg».proof.Proof.Gen.KernelIdeal.Points
import proofs.«145512_j86715389706430_2_alg».proof.Proof.Gen.KernelIdeal.Frame
import proofs.«145512_j86715389706430_2_alg».proof.Proof.Gen.ReferenceIdeal
import proofs.«145512_j86715389706430_2_alg».proof.Proof.Gen.ReferenceIdeal.Run
import proofs.«145512_j86715389706430_2_alg».proof.Proof.Gen.ReferenceIdeal.Read
import proofs.«145512_j86715389706430_2_alg».proof.Proof.Gen.Pre_finite_inputs
import proofs.«145512_j86715389706430_2_alg».proof.Proof.KernelRun
import proofs.«145512_j86715389706430_2_alg».proof.Proof.Reference
import proofs.«145512_j86715389706430_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the shared routing around `G` of the same gathered tokens and weights. -/
theorem algebraic : Cert.algebraic_KernelIdeal_ReferenceIdeal := by
  intro m ρ m' ρ' _ hagree
  refine ⟨fun c => Cert.KernelIdeal.KernelRun.result m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  refine (Cert.ReferenceIdeal.Read.val_main_v19_eq _ _ _ _).trans ?_
  unfold Cert.ReferenceIdeal.Read.val_main_v19 Cert.ReferenceIdeal.Read.val_main_v11
  rw [Cert.ReferenceIdeal.RefValue.dots_eq, Cert.ReferenceIdeal.Bridge.gathered_eq]
  exact Cert.ReferenceIdeal.Bridge.scattered_eq _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
